-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x4096 : Shape := ⟨2, ![512, 4096]⟩
abbrev S1x4096 : Shape := ⟨2, ![1, 4096]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_v13 : IVec S_ 1) (main_v15 : IVec S1x4096 1) (main_c_5 : IVec S_ 1) : IVec S_ 1 :=
  let main_v16 : IVec S_ 1 := (fun x v => Host.reduce IntOp.andi x v reducesTo_S1x4096_S_d0_1 h_S_) main_v15 main_c_5
  let main_v17 : IVec S_ 1 := andi main_v13 main_v16
  main_v17

def fn {F : FTy → Type} [FloatOps F] (main_arg0 : FVec F S8192x512 .f32) (main_arg1 : FVec F S512x4096 .f32) (main_arg2 : FVec F S1x4096 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_cst_4 : FVec F S_ .f32 := constant S_ .f32 0x00000000#32
  let main_v14 : FVec F S1x4096 .f32 := broadcastInDim S1x4096 ![] bcast_S_S1x4096 main_cst_4
  let main_v15 : IVec S1x4096 1 := cmpf .une main_arg2 main_v14
  let main_c_5 : IVec S_ 1 := constantI S_ 1 1#1
  fn_part1 (F := F) main_v13 main_v15 main_c_5
-- ==== Kernel.lean ====
abbrev S8192x512 : Shape := ⟨2, ![8192, 512]⟩
abbrev S512x4096 : Shape := ⟨2, ![512, 4096]⟩
abbrev S1x4096 : Shape := ⟨2, ![1, 4096]⟩
abbrev S_ : Shape := ⟨0, ![]⟩
abbrev S4096 : Shape := ⟨1, ![4096]⟩
abbrev S8192x4096 : Shape := ⟨2, ![8192, 4096]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 18
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S1x4096, .f32⟩
  | .hbm, ⟨3, _⟩ => ⟨S8192x512, .bf16⟩
  | .hbm, ⟨4, _⟩ => ⟨S512x4096, .bf16⟩
  | .hbm, ⟨5, _⟩ => ⟨S512x4096, .f32⟩
  | .hbm, ⟨6, _⟩ => ⟨S512x4096, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S_, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S_, .f32⟩
  | .hbm, ⟨15, _⟩ => ⟨S1x4096, .f32⟩
  | .hbm, ⟨16, _⟩ => ⟨S1x4096, .f32⟩
  | .hbm, ⟨17, _⟩ => ⟨S8192x4096, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  reducesTo_S512x4096_S4096_d0 : S512x4096.ReducesTo [0] S4096
  h_S_ : 0 < S_.numel
  bcast_S4096_S1x4096_1 : S4096.BroadcastsInDim S1x4096 (![1] : Fin 1 → Fin S1x4096.rank)
  bcast_S_S1x4096 : S_.BroadcastsInDim S1x4096 (![] : Fin 0 → Fin S1x4096.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S1024x512_S1024 : S1024x512.Reduces [1] S1024
  shapeCasts_S1024_S1024x1 : S1024.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x4096.size a
  hwx0_1 : ∀ i : grid0.Coords, EltTy.bits .bf16 = 32 ∨ (Rect.block (s := S512x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x4096 : Shape := ⟨2, ![512, 4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩
abbrev S4096 : Shape := ⟨1, ![4096]⟩
abbrev S8192x4096 : Shape := ⟨2, ![8192, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S1x4096, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S512x4096, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S1x4096, .f32⟩
  | .hbm, ⟨22, _⟩ => ⟨S1x4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S8192x4096, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  reducesTo_S512x4096_S4096_d0 : S512x4096.ReducesTo [0] S4096
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S_S1x4096 : S_.BroadcastsInDim S1x4096 (![] : Fin 0 → Fin S1x4096.rank)
  dot_S8192x512_S512x4096_S8192x4096_1_0_0_1_n_n_wf : DotDims.WF S8192x512 S512x4096 S8192x4096 [1] [0] [0] [1] [] []

variable [Facts₀]

def dot_S8192x512_S512x4096_S8192x4096_1_0_0_1_n_n : DotDims S8192x512 S512x4096 S8192x4096 where
  lhsContracting := [1]
  rhsContracting := [0]
  lhsNonContracting := [0]
  rhsNonContracting := [1]
  lhsBatch := []
  rhsBatch := []
  wf := dot_S8192x512_S512x4096_S8192x4096_1_0_0_1_n_n_wf

class Facts : Prop extends Facts₀ where

variable [Facts]
-- ==== Proof.RbfLaw.lean ====
/-
  The radial-basis entry, as each program computes it, and the law that joins the two.

  For a query row `x`, a centre column `w` (both of length 512) and a bandwidth `s`, write `A = Σ x_k²`, `B = Σ w_k²`,
  `C = Σ x_k w_k`. One program returns `exp (max (A + B − 2C, 0) · (−1 / (2 s s)))`, the other
  `exp (−(A + B − 2C) / (2 s s))`. On real entries `A + B − 2C = Σ (x_k − w_k)²` is a sum of squares, hence not negative, so
  the clamp at zero is the identity; and for `s ≠ 0` the divisor `2 s s` is a non-zero real, so multiplying by `−1 / (2 s s)`
  and dividing the negated distance by `2 s s` are the same real number. Both steps use that the entries are real: on the
  extended reals a sum of squares of infinities minus an infinity has no such reading, and a quotient by zero is an infinity
  whose product with a zero distance is not the quotient `0 / 0`.
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-! ## The three words the programs spell -/

/-- The word of `+0.0` denotes `0`. -/
theorem word_zero : Ideal.ofBits .f32 0x00000000#32 = 0 := Ideal.ofBits_zero_f32

/-- The word of `2.0` denotes the real `2`. -/
theorem word_two : Ideal.ofBits .f32 0x40000000#32 = ((2 : ℝ) : EReal) := by
  simp [Ideal.ofBits, Ideal.ieee, -EReal.coe_mul]; norm_num

/-- The word of `-1.0` denotes the real `-1`. -/
theorem word_neg_one : Ideal.ofBits .f32 0xBF800000#32 = ((-1 : ℝ) : EReal) := by
  simp [Ideal.ofBits, Ideal.ieee, -EReal.coe_mul]; norm_num

/-! ## Sums of reals inside the extended reals -/

/-- The inclusion of the reals commutes with finite sums. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum of products of real entries, taken in the extended reals, is the real sum. -/
theorem sum_coe_mul {ι : Type} [Fintype ι] (f g : ι → ℝ) :
    ∑ k, ((f k : ℝ) : EReal) * ((g k : ℝ) : EReal) = ((∑ k, f k * g k : ℝ) : EReal) := by
  rw [coe_sum]
  exact Finset.sum_congr rfl fun k _ => (EReal.coe_mul _ _).symm

/-- `Σ x² + Σ w² − 2 Σ x w` is the sum of the squared differences. -/
theorem sqdist_expand {ι : Type} [Fintype ι] (x w : ι → ℝ) :
    (∑ k, x k * x k) + (∑ k, w k * w k) - 2 * ∑ k, x k * w k = ∑ k, (x k - w k) * (x k - w k) := by
  rw [Finset.mul_sum, ← Finset.sum_add_distrib, ← Finset.sum_sub_distrib]
  exact Finset.sum_congr rfl fun k _ => by ring

/-- So it is not negative. -/
theorem sqdist_nonneg {ι : Type} [Fintype ι] (x w : ι → ℝ) :
    0 ≤ (∑ k, x k * x k) + (∑ k, w k * w k) - 2 * ∑ k, x k * w k := by
  rw [sqdist_expand]
  exact Finset.sum_nonneg fun k _ => mul_self_nonneg _

/-! ## The exponent, as each program computes it -/

/-- The exponent with the distance clamped at zero and multiplied by `−1 / (2 s s)`; `sx`, `sw`, `sxw` are the three sums. -/
def clampedExponent (sx sw sxw s : EReal) : EReal :=
  max ((sx + (Ideal.ofBits .f32 0x00000000#32 + sw)) - Ideal.ofBits .f32 0x40000000#32 * sxw) (Ideal.ofBits .f32 0x00000000#32)
    * Ideal.div (Ideal.ofBits .f32 0xBF800000#32) ((Ideal.ofBits .f32 0x40000000#32 * s) * s)

/-- The exponent with the distance negated and divided by `2 s s`. -/
def quotientExponent (sx sw sxw s : EReal) : EReal :=
  Ideal.div (-(((Ideal.ofBits .f32 0x00000000#32 + sx) + (Ideal.ofBits .f32 0x00000000#32 + sw)) - Ideal.ofBits .f32 0x40000000#32 * sxw))
    ((Ideal.ofBits .f32 0x40000000#32 * s) * s)

/-- THE LAW: on real rows and a non-zero real bandwidth the two exponents are one real number. -/
theorem exponent_eq {ι : Type} [Fintype ι] (x w : ι → ℝ) (s : ℝ) (hs : s ≠ 0) :
    clampedExponent (∑ k, (x k : EReal) * (x k : EReal)) (∑ k, (w k : EReal) * (w k : EReal)) (∑ k, (x k : EReal) * (w k : EReal)) (s : EReal)
      = quotientExponent (∑ k, (x k : EReal) * (x k : EReal)) (∑ k, (w k : EReal) * (w k : EReal)) (∑ k, (x k : EReal) * (w k : EReal)) (s : EReal) := by
  have hq : (2 * s) * s ≠ 0 := mul_ne_zero (mul_ne_zero two_ne_zero hs) hs
  have hd := sqdist_nonneg x w
  unfold clampedExponent quotientExponent
  rw [sum_coe_mul, sum_coe_mul, sum_coe_mul, word_zero, word_two, word_neg_one, zero_add, zero_add,
    ← EReal.coe_mul, ← EReal.coe_mul, ← EReal.coe_mul, ← EReal.coe_add, ← EReal.coe_sub, ← EReal.coe_neg,
    Ideal.div_coe hq, Ideal.div_coe hq, max_eq_left (show (0 : EReal) ≤ _ from EReal.coe_nonneg.mpr hd),
    ← EReal.coe_mul, ← EReal.coe_mul, ← EReal.coe_mul]
  exact congrArg _ (by ring)

/-! ## The two result arrays, entry by entry -/

/-- Entry `(b, c)` of the result with the clamped exponent: from row `b` of `X`, column `c` of `W` and bandwidth `c`. -/
def clampedEntry (X : (⟨2, ![8192, 512]⟩ : Shape).Idx → EReal) (W : (⟨2, ![512, 4096]⟩ : Shape).Idx → EReal)
    (S : (⟨2, ![1, 4096]⟩ : Shape).Idx → EReal) (b : Fin 8192) (c : Fin 4096) : EReal :=
  Ideal.exp (clampedExponent (∑ k : Fin 512, X (ix2 b k) * X (ix2 b k)) (∑ k : Fin 512, W (ix2 k c) * W (ix2 k c))
    (∑ k : Fin 512, X (ix2 b k) * W (ix2 k c)) (S (ix2 (0 : Fin 1) c)))

/-- Entry `(b, c)` of the result with the quotient exponent. -/
def quotientEntry (X : (⟨2, ![8192, 512]⟩ : Shape).Idx → EReal) (W : (⟨2, ![512, 4096]⟩ : Shape).Idx → EReal)
    (S : (⟨2, ![1, 4096]⟩ : Shape).Idx → EReal) (b : Fin 8192) (c : Fin 4096) : EReal :=
  Ideal.exp (quotientExponent (∑ k : Fin 512, X (ix2 b k) * X (ix2 b k)) (∑ k : Fin 512, W (ix2 k c) * W (ix2 k c))
    (∑ k : Fin 512, X (ix2 b k) * W (ix2 k c)) (S (ix2 (0 : Fin 1) c)))

/-- The whole array with the clamped exponent. -/
def clampedArray (X : (⟨2, ![8192, 512]⟩ : Shape).Idx → EReal) (W : (⟨2, ![512, 4096]⟩ : Shape).Idx → EReal)
    (S : (⟨2, ![1, 4096]⟩ : Shape).Idx → EReal) : (⟨2, ![8192, 4096]⟩ : Shape).Idx → EReal :=
  fun i => clampedEntry X W S (i 0) (i 1)

/-- The whole array with the quotient exponent. -/
def quotientArray (X : (⟨2, ![8192, 512]⟩ : Shape).Idx → EReal) (W : (⟨2, ![512, 4096]⟩ : Shape).Idx → EReal)
    (S : (⟨2, ![1, 4096]⟩ : Shape).Idx → EReal) : (⟨2, ![8192, 4096]⟩ : Shape).Idx → EReal :=
  fun i => quotientEntry X W S (i 0) (i 1)

/-- On real inputs with no zero bandwidth the two arrays are equal. -/
theorem clampedArray_eq_quotientArray (X : (⟨2, ![8192, 512]⟩ : Shape).Idx → EReal) (W : (⟨2, ![512, 4096]⟩ : Shape).Idx → EReal)
    (S : (⟨2, ![1, 4096]⟩ : Shape).Idx → EReal) (hX : ∀ i, ∃ r : ℝ, X i = r) (hW : ∀ i, ∃ r : ℝ, W i = r)
    (hS : ∀ i, ∃ r : ℝ, S i = r ∧ r ≠ 0) : clampedArray X W S = quotientArray X W S := by
  choose x hx using hX
  choose w hw using hW
  choose s hs using hS
  obtain rfl : X = fun i => ((x i : ℝ) : EReal) := funext hx
  obtain rfl : W = fun i => ((w i : ℝ) : EReal) := funext hw
  obtain rfl : S = fun i => ((s i : ℝ) : EReal) := funext fun i => (hs i).1
  funext i
  exact congrArg Ideal.exp (exponent_eq (fun k : Fin 512 => x (ix2 (i 0) k)) (fun k : Fin 512 => w (ix2 k (i 1))) (s (ix2 (0 : Fin 1) (i 1))) (hs _).2)

end Cert.Rbf

end
-- ==== Proof.Domain.lean ====
/-
  What the precondition says of the three input arrays: every entry of `x`, `w` and `s` is a real number (its absolute
  value is below +∞), and no entry of `s` is zero.
-/
import proofs.«134517_j82300163326748_2_alg».proof.Pre_finite_inputs
import proofs.«134517_j82300163326748_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Rbf.Domain

open Idealize.ShloMosaic Cert.Pre_finite_inputs

instance : Subsingleton S_.Idx := ⟨fun a b => funext fun d => d.elim0⟩

/-- The word of +∞ denotes the top element. -/
theorem word_inf : Ideal.ofBits .f32 0x7F800000#32 = ⊤ := by
  simp [Ideal.ofBits, Ideal.ieee]

/-- An extended real whose absolute value is below +∞ is a real number. -/
theorem real_of_abs_lt (x : EReal) (h : Ideal.cmp .olt (max x (-x)) (Ideal.ofBits .f32 0x7F800000#32) = 1#1) : ∃ r : ℝ, x = r := by
  rw [word_inf] at h
  induction x using EReal.rec with
  | bot => exact absurd h (by simp [Ideal.cmp])
  | coe r => exact ⟨r, rfl⟩
  | top => exact absurd h (by simp [Ideal.cmp])

/-- An extended real that the comparison finds different from the word of zero is not zero. -/
theorem ne_zero_of_cmp (x : EReal) (h : Ideal.cmp .une x (Ideal.ofBits .f32 0x00000000#32) = 1#1) : x ≠ 0 := by
  rw [Ideal.ofBits_zero_f32] at h
  intro e
  rw [e] at h
  exact absurd h (by simp [Ideal.cmp])

/-- The precondition, read: the three arrays hold real numbers and no bandwidth is zero. -/
theorem decode (X : FVec Ideal S8192x512 .f32) (W : FVec Ideal S512x4096 .f32) (S : FVec Ideal S1x4096 .f32)
    (h : fn (F := Ideal) X W S = fun _ => 1#1) :
    (∀ i, ∃ r : ℝ, X i = r) ∧ (∀ i, ∃ r : ℝ, W i = r) ∧ (∀ i, ∃ r : ℝ, S i = r ∧ r ≠ 0) := by
  have h0 := congrFun h ValueIdx.ix0
  dsimp only [fn, fn_part1] at h0
  obtain ⟨h123, h4⟩ := IntOp.andi_eq_one.mp h0
  obtain ⟨h12, h3⟩ := IntOp.andi_eq_one.mp h123
  obtain ⟨h1, h2⟩ := IntOp.andi_eq_one.mp h12
  refine ⟨fun i => ?_, fun i => ?_, fun i => ?_⟩
  · exact real_of_abs_lt (X i) (Host.reduce_andi_all _ _ _ _ _ h1 i)
  · exact real_of_abs_lt (W i) (Host.reduce_andi_all _ _ _ _ _ h2 i)
  · obtain ⟨r, hr⟩ := real_of_abs_lt (S i) (Host.reduce_andi_all _ _ _ _ _ h3 i)
    have hne : S i ≠ 0 := ne_zero_of_cmp (S i) (Host.reduce_andi_all _ _ _ _ _ h4 i)
    refine ⟨r, hr, fun e => hne ?_⟩
    rw [hr, e]
    rfl

end Cert.Rbf.Domain

end
-- ==== Proof.RefRead.lean ====
/-
  The reference program's result, entry by entry: at `(b, c)` it is `exp` of the quotient exponent of row `b` of `x`,
  column `c` of `w` and bandwidth `c` — the two squared norms as host sums from zero, the cross term as the host's matrix
  product, the distance negated and divided by `2 s s`.
-/
import proofs.«134517_j82300163326748_2_alg».proof.Proof.Gen.ReferenceIdeal.Read
import proofs.«134517_j82300163326748_2_alg».proof.Proof.RbfLaw

noncomputable section

open scoped BigOperators

namespace Cert.Rbf.RefRead

open Idealize.ShloMosaic Idealize.ShloMosaic.ValueIdx Cert.ReferenceIdeal Cert.ReferenceIdeal.Read

/-- Row `b` of `x` as the row sum reads it. -/
theorem row_x (b : Fin 8192) (c : Fin 4096) (k : Fin 512) :
    idx_main_v1 (idx_main_v2 (idx_main_v7 (ix2 b c))) k = ix2 b k :=
  funext fun a => Fin.ext (by match a with | ⟨0, _⟩ => rfl | ⟨1, _⟩ => rfl)

/-- Column `c` of `w` as the column sum reads it. -/
theorem col_w (b : Fin 8192) (c : Fin 4096) (k : Fin 512) :
    idx_main_v4 (idx_main_v5 (idx_main_v8 (ix2 b c))) k = ix2 k c :=
  funext fun a => Fin.ext (by match a with | ⟨0, _⟩ => rfl | ⟨1, _⟩ => rfl)

/-- The product's left operand at `(b, c)`, position `k`. -/
theorem dot_l (b : Fin 8192) (c : Fin 4096) (k : Fin 512) : lidx_main_v6 (ix2 b c) k = ix2 b k :=
  funext fun a => Fin.ext (by match a with | ⟨0, _⟩ => rfl | ⟨1, _⟩ => rfl)

/-- The product's right operand at `(b, c)`, position `k`. -/
theorem dot_r (b : Fin 8192) (c : Fin 4096) (k : Fin 512) : ridx_main_v6 (ix2 b c) k = ix2 k c :=
  funext fun a => Fin.ext (by match a with | ⟨0, _⟩ => rfl | ⟨1, _⟩ => rfl)

/-- The bandwidth read at `(b, c)`. -/
theorem band (b : Fin 8192) (c : Fin 4096) : idx_main_v17 (ix2 b c) = ix2 (0 : Fin 1) c :=
  funext fun a => Fin.ext (by match a with | ⟨0, _⟩ => rfl | ⟨1, _⟩ => rfl)

/-- The reference's result array is the array with the quotient exponent. -/
theorem result_eq (X : (⟨S8192x512, .f32⟩ : BufTy).Contents (Elt Ideal)) (W : (⟨S512x4096, .f32⟩ : BufTy).Contents (Elt Ideal))
    (S : (⟨S1x4096, .f32⟩ : BufTy).Contents (Elt Ideal)) :
    val_main_v19 (F := Ideal) X W S = Cert.Rbf.quotientArray X W S := by
  funext i
  obtain ⟨b, c, rfl⟩ : ∃ (b : Fin 8192) (c : Fin 4096), i = ix2 b c := ⟨i 0, i 1, eq_ix2 i⟩
  show _ = Cert.Rbf.quotientEntry X W S b c
  unfold Cert.Rbf.quotientEntry Cert.Rbf.quotientExponent
  rw [val_main_v19_apply, val_main_v18_apply, val_main_v13_apply, val_main_v12_apply, val_main_v9_apply, val_main_v11_apply,
    val_main_v10_apply, val_main_cst_1_apply, val_main_v6_apply, val_main_v7_apply, val_main_v2_apply, val_main_v1_apply,
    val_main_v8_apply, val_main_v5_apply, val_main_v4_apply, val_main_v17_apply, val_main_v16_apply, val_main_v15_apply,
    val_main_v14_apply, val_main_cst_2_apply, val_main_cst_apply, val_main_cst_0_apply]
  simp only [val_main_v0_apply, val_main_v3_apply, row_x, col_w, dot_l, dot_r, band, Ideal.mulf_def, Ideal.addf_def, Ideal.subf_def,
    Ideal.hostDivf_def, Ideal.hostNegf_def, Ideal.negf_def, Ideal.hostUnary_exp_def, Ideal.ofBits_def]

end Cert.Rbf.RefRead

end
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.LibLastAxis.lean ====
/-
  Reductions along the last axis read at an index, on the extended reals (floats as extended reals, operations exact):
  general facts, independent of any program.

  For a matrix `[a, b]` the vector unit's sum and maximum over axis 1 leave one entry per row: at row `p` the sum is the
  sum over the columns `k` of the entry `(p, k)`, and the maximum taken from −∞ is the fold of `max` over those entries.
  For a rank-3 array `[n0, n1, n2]` the host's reduce with a maximum body over axis 2 leaves, at `(b, c)`, the fold of
  `max`, from the initial value's element, over the entries `(b, c, k)`.
-/
import Idealize.ShloMosaic.PureOps.Ideal
import Idealize.ShloMosaic.PureOps.Ideal.Laws
import Idealize.ShloMosaic.Lib.ValueIdx

noncomputable section

open scoped BigOperators

namespace Cert.LibLastAxis

open Idealize.ShloMosaic Idealize.ShloMosaic.ValueIdx

/-- Along axis 1 of a matrix, row `p` with column `k` put back is the entry `(p, k)`. -/
theorem lift_row {a b : ℕ} (hred : (⟨2, ![a, b]⟩ : Shape).Reduces [1] ⟨1, ![a]⟩) (p : Fin a) (k : Fin b) :
    hred.lift (ix1 p) k = ix2 p k := by
  funext ax
  match ax with
  | ⟨0, _⟩ => exact Fin.ext rfl
  | ⟨1, _⟩ => exact Fin.ext rfl

/-- The vector unit's sum over axis 1 of an `[a, b]` vector, from `+0.0`, read at row `p`: the sum over the columns. -/
theorem rowSum_apply {a b : ℕ} (v : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ v 0x00000000#32 hred hφ hacc (ix1 p) = ∑ k : Fin b, v (ix2 p k) :=
  (Ideal.multiReduction_add_single (φ := .f32) v 0x00000000#32 hred hφ hacc (ix1 p)).trans
    (Finset.sum_congr rfl fun k _ => congrArg v (lift_row hred p k))

/-- The vector unit's maximum over axis 1 of an `[a, b]` vector, from −∞, read at row `p`: the fold of `max` over the
    columns, started at the value of the word for −∞. -/
theorem rowMax_apply {a b : ℕ} (v : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32) (p : Fin a) :
    multiReduction (F := Ideal) .maximumf [1] ⟨1, ![a]⟩ v 0xFF800000#32 hred hφ hacc (ix1 p)
      = (Finset.univ : Finset (Fin b)).fold max (Ideal.ofBits .f32 0xFF800000#32) (fun k => v (ix2 p k)) :=
  (Ideal.multiReduction_maximumf_single (φ := .f32) v 0xFF800000#32 hred hφ hacc (ix1 p)).trans
    (congrArg (fun f => Finset.fold max (Ideal.ofBits .f32 0xFF800000#32) f (Finset.univ : Finset (Fin b)))
      (funext fun k => congrArg v (lift_row hred p k)))

/-- Along axis 2 of a rank-3 array, `(b, c)` with coordinate `k` put back is the entry `(b, c, k)`. -/
theorem lift_last3 {n0 n1 n2 : ℕ} (hred : (⟨3, ![n0, n1, n2]⟩ : Shape).Reduces [2] ⟨2, ![n0, n1]⟩)
    (b : Fin n0) (c : Fin n1) (k : Fin n2) : hred.lift (ix2 b c) k = ix3 b c k := by
  funext ax
  match ax with
  | ⟨0, _⟩ => exact Fin.ext rfl
  | ⟨1, _⟩ => exact Fin.ext rfl
  | ⟨2, _⟩ => exact Fin.ext rfl

/-- The host's reduce with a maximum body over axis 2 of an `[n0, n1, n2]` array, read at `(b, c)`: the fold of `max`,
    from the initial value's one element, over the entries `(b, c, k)`. -/
theorem hostMax_last3_apply {n0 n1 n2 : ℕ} (x : FVec Ideal ⟨3, ![n0, n1, n2]⟩ .f32) (init : FVec Ideal ⟨0, ![]⟩ .f32)
    (h' : (⟨3, ![n0, n1, n2]⟩ : Shape).ReducesTo [2] ⟨2, ![n0, n1]⟩)
    (hred : (⟨3, ![n0, n1, n2]⟩ : Shape).Reduces [2] ⟨2, ![n0, n1]⟩)
    (hu : 0 < (⟨0, ![]⟩ : Shape).numel) (b : Fin n0) (c : Fin n1) :
    Host.reduce (FloatOps.maximumf (F := Ideal) (φ := .f32)) x init h' hu (ix2 b c)
      = (Finset.univ : Finset (Fin n2)).fold max (init (Shape.Idx.first hu)) (fun k => x (ix3 b c k)) := by
  rw [Host.reduce_eq_fold_single FloatOps.maximumf x init h' hred hu]
  exact congrArg (fun f => Finset.fold max (init (Shape.Idx.first hu)) f (Finset.univ : Finset (Fin n2)))
    (funext fun k => congrArg x (lift_last3 hred b c k))

end Cert.LibLastAxis

end
-- ==== Proof.KernelEntry.lean ====
/-
  What the kernel body stores, entry by entry. From the four loaded blocks — a row block `x0` of the queries ([1024, 512]),
  a column block `x1` of the centres ([512, 1024]), the centres' squared norms `x2` and the multipliers `x3` for those
  columns (both [1, 1024]) — the stored block at `(p, q)` is
  `exp (max ((Σ_k x0(p,k)² + x2(0,q)) − 2 · Σ_k x0(p,k) · x1(k,q), 0) · x3(0,q))`:
  the row's squared norm is a lane sum kept as a column and repeated along the columns, the two row vectors are repeated down
  the rows, and the product into a zero accumulator is the sum over the contracted axis.
-/
import proofs.«134517_j82300163326748_2_alg».proof.Proof.Gen.KernelIdeal.Skeleton
import proofs.«134517_j82300163326748_2_alg».proof.Proof.LibKeepdims
import proofs.«134517_j82300163326748_2_alg».proof.Proof.LibDense
import proofs.«134517_j82300163326748_2_alg».proof.Proof.LibLastAxis
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Rbf.KernelEntry

open Idealize.ShloMosaic Idealize.ShloMosaic.ValueIdx Cert.KernelIdeal Cert.KernelIdeal.Gen

/-! ## Where the kernel's product reads its operands -/

theorem dot_l0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl

theorem dot_l1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q

theorem dot_r0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q

theorem dot_r1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-! ## The three pieces that are not pointwise -/

/-- The cross term: the product into the zero accumulator at `(p, q)` is the sum over `k` of `x0 (p, k) · x1 (k, q)`. -/
theorem cross_apply (x0 : FVec Ideal S1024x512 .bf16) (x1 : FVec Ideal S512x1024 .bf16) (p q : Fin 1024) :
    matmul dot_S1024x512_S512x1024_S1024x1024_1_0_0_1_n_n none x0 x1 (constant S1024x1024 .f32 0x00000000#32) (ix2 p q)
      = ∑ k : Fin 512, x0 (ix2 p k) * x1 (ix2 k q) :=
  matmul_zero_plain_apply dot_S1024x512_S512x1024_S1024x1024_1_0_0_1_n_n none rfl rfl dot_l0 dot_l1 dot_r0 dot_r1 x0 x1 p q

/-- The row's squared norm: the lane sum of the squares, kept as a column and repeated along the columns, read at `(p, q)`. -/
theorem rownorm_apply (x0 : FVec Ideal S1024x512 .bf16) (p q : Fin 1024) :
    broadcastTo S1024x1024 (shapeCast S1024x1 (multiReduction (F := Ideal) .add [1] S1024
        (mulf (extf .f32 x0 bitsLt_bf16_f32) (extf .f32 x0 bitsLt_bf16_f32)) 0x00000000#32 reduces_S1024x512_S1024 (.inl rfl) rfl)
        shapeCasts_S1024_S1024x1) broadcasts_S1024x1_S1024x1024 (ix2 p q)
      = ∑ k : Fin 512, x0 (ix2 p k) * x0 (ix2 p k) :=
  (broadcastTo_a1_ab_apply _ broadcasts_S1024x1_S1024x1024 p q).trans
    ((shapeCast_a_a1_apply _ shapeCasts_S1024_S1024x1 p (0 : Fin 1)).trans
      (Cert.LibLastAxis.rowSum_apply _ reduces_S1024x512_S1024 (.inl rfl) rfl p))

/-- A one-row vector repeated down the rows, read at `(p, q)`. -/
theorem rowvec_apply (x : FVec Ideal S1x1024 .f32) (p q : Fin 1024) :
    broadcastTo S1024x1024 x broadcasts_S1x1024_S1024x1024 (ix2 p q) = x (ix2 (0 : Fin 1) q) :=
  broadcastTo_1b_ab_apply x broadcasts_S1x1024_S1024x1024 p q

/-! ## The stored block -/

/-- The body's stored value with the casts to the same shape removed. -/
theorem payload_eq (x0 : FVec Ideal S1024x512 .bf16) (x1 : FVec Ideal S512x1024 .bf16) (x2 x3 : FVec Ideal S1x1024 .f32) :
    k0_pay1 (F := Ideal) x0 x1 x2 x3
      = exp (mulf (maximumf (subf (addf
          (broadcastTo S1024x1024 (shapeCast S1024x1 (multiReduction (F := Ideal) .add [1] S1024
            (mulf (extf .f32 x0 bitsLt_bf16_f32) (extf .f32 x0 bitsLt_bf16_f32)) 0x00000000#32 reduces_S1024x512_S1024 (.inl rfl) rfl)
            shapeCasts_S1024_S1024x1) broadcasts_S1024x1_S1024x1024)
          (broadcastTo S1024x1024 x2 broadcasts_S1x1024_S1024x1024))
          (mulf (broadcast S1024x1024 (Scalar.ofBits (F := Ideal) .f32 0x40000000#32))
            (matmul dot_S1024x512_S512x1024_S1024x1024_1_0_0_1_n_n none x0 x1 (constant S1024x1024 .f32 0x00000000#32))))
          (broadcast S1024x1024 (Scalar.ofBits (F := Ideal) .f32 0x00000000#32)))
          (broadcastTo S1024x1024 x3 broadcasts_S1x1024_S1024x1024)) := by
  unfold k0_pay1
  simp only [shapeCast_self]

/-- THE STORED BLOCK AT `(p, q)`. -/
theorem payload_apply (x0 : FVec Ideal S1024x512 .bf16) (x1 : FVec Ideal S512x1024 .bf16) (x2 x3 : FVec Ideal S1x1024 .f32) (p q : Fin 1024) :
    k0_pay1 (F := Ideal) x0 x1 x2 x3 (ix2 p q)
      = Ideal.exp (max (((∑ k : Fin 512, x0 (ix2 p k) * x0 (ix2 p k)) + x2 (ix2 (0 : Fin 1) q))
          - Ideal.ofBits .f32 0x40000000#32 * ∑ k : Fin 512, x0 (ix2 p k) * x1 (ix2 k q)) (Ideal.ofBits .f32 0x00000000#32)
          * x3 (ix2 (0 : Fin 1) q)) := by
  rw [payload_eq]
  show Ideal.exp (max ((_ + _) - Ideal.ofBits .f32 0x40000000#32 * _) (Ideal.ofBits .f32 0x00000000#32) * _) = _
  rw [rownorm_apply, rowvec_apply, rowvec_apply, cross_apply]

end Cert.Rbf.KernelEntry

end
-- ==== Proof.LibBroadcastInDim.lean ====
/-
  `broadcast_in_dim` read at an index, for four shapes a host program takes a row statistic or a bias through
  (the library has the fifth, a scalar spread over any shape): a vector written as a column; a column repeated along every column; a vector written
  as a one-row matrix; a one-row matrix repeated down every row. In each the entry of the result at an index is the
  operand's entry at the coordinates the operand has.
-/
import Idealize.ShloMosaic.Lib.Pipeline.Value
import Idealize.ShloMosaic.Lib.ValueIdx

namespace Idealize.ShloMosaic.ValueIdx

variable {α : Type}

/-- An `[a]` vector written as the column `[a, 1]` (its axis sent to axis 0) reads, at `(p, u)`, the vector at `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ (![0] : Fin 1 → Fin 2) h x (ix2 p u) = x (ix1 p) :=
  broadcastInDim_apply _ h x (ix2 p u) (ix1 p) fun ax => by
    match ax with
    | ⟨0, _⟩ =>
      show p.val = if a = 1 then 0 else p.val
      split
      · have := p.isLt; omega
      · rfl

/-- An `[a, 1]` column repeated along the columns of `[a, b]` (axes kept in place) reads, at `(p, c)`, the column at row `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ (![0, 1] : Fin 2 → Fin 2) h x (ix2 p c) = x (ix2 p (0 : Fin 1)) :=
  broadcastInDim_apply _ h x (ix2 p c) (ix2 p (0 : Fin 1)) fun ax => by
    match ax with
    | ⟨0, _⟩ =>
      show p.val = if a = 1 then 0 else p.val
      split
      · have := p.isLt; omega
      · rfl
    | ⟨1, _⟩ => rfl

/-- A `[b]` vector written as the one-row matrix `[1, b]` (its axis sent to axis 1) reads, at `(u, c)`, the vector at `c`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ (![1] : Fin 1 → Fin 2) h x (ix2 u c) = x (ix1 c) :=
  broadcastInDim_apply _ h x (ix2 u c) (ix1 c) fun ax => by
    match ax with
    | ⟨0, _⟩ =>
      show c.val = if b = 1 then 0 else c.val
      split
      · have := c.isLt; omega
      · rfl

/-- A `[1, b]` one-row matrix repeated down the rows of `[a, b]` reads, at `(p, c)`, the row at column `c`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ (![0, 1] : Fin 2 → Fin 2) h x (ix2 p c) = x (ix2 (0 : Fin 1) c) :=
  broadcastInDim_apply _ h x (ix2 p c) (ix2 (0 : Fin 1) c) fun ax => by
    match ax with
    | ⟨0, _⟩ => rfl
    | ⟨1, _⟩ =>
      show c.val = if b = 1 then 0 else c.val
      split
      · have := c.isLt; omega
      · rfl

end Idealize.ShloMosaic.ValueIdx
-- ==== Proof.KernelHost.lean ====
/-
  The four arrays the kernel's windows stage, as the host operations before the call leave them, read at an index:
  the queries and the centres rounded to the short format (at the exact values: unchanged), the centres' squared column
  norms `0 + Σ_k w(k,c)²` as a one-row matrix, and the multipliers `−1 / ((2 · s(0,c)) · s(0,c))`.
-/
import proofs.«134517_j82300163326748_2_alg».proof.Proof.Gen.KernelIdeal.Frame
import proofs.«134517_j82300163326748_2_alg».proof.Proof.LibBroadcastInDim
import Idealize.ShloMosaic.Lib.StableHlo.Run
import Idealize.ShloMosaic.PureOps.Ideal.Laws
import Idealize.ShloMosaic.Lib.ValueIdx

noncomputable section

open scoped BigOperators

namespace Cert.Rbf.KernelHost

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ)

/-- The queries `x` on core `c`, as launched. -/
abbrev argX (c : Dev nD) : FVec Ideal S8192x512 .f32 := m ((c : Thread nD τ).loc main_arg0)
/-- The centres `w` on core `c`, as launched. -/
abbrev argW (c : Dev nD) : FVec Ideal S512x4096 .f32 := m ((c : Thread nD τ).loc main_arg1)
/-- The bandwidths `s` on core `c`, as launched. -/
abbrev argS (c : Dev nD) : FVec Ideal S1x4096 .f32 := m ((c : Thread nD τ).loc main_arg2)

/-- The queries as the first window's array holds them: the argument, entry by entry. -/
theorem queries_eq (c : Dev nD) :
    (V m c main_v0 : S8192x512.Idx → EReal) = argX m c := by
  dsimp only [Gen.V, Gen.hostOps0]
  after_results
  rfl

/-- The centres as the second window's array holds them: the argument, entry by entry. -/
theorem centres_eq (c : Dev nD) :
    (V m c main_v1 : S512x4096.Idx → EReal) = argW m c := by
  dsimp only [Gen.V, Gen.hostOps0]
  after_results
  rfl

/-- The third window's array at column `q`: zero plus the sum of the squares down column `q` of the centres. -/
theorem colnorm_apply (c : Dev nD) (q : Fin 4096) :
    (V m c main_v5 : S1x4096.Idx → EReal) (ix2 (0 : Fin 1) q)
      = Ideal.ofBits .f32 0x00000000#32 + ∑ k : Fin 512,
          argW m c (ix2 k q) * argW m c (ix2 k q) := by
  have e : (V m c main_v5 : S1x4096.Idx → EReal)
      = broadcastInDim S1x4096 ![1] bcast_S4096_S1x4096_1 (Host.reduceAdd (F := Ideal)
          (mulf (argW m c) (argW m c))
          (constant (F := Ideal) S_ .f32 0x00000000#32) reducesTo_S512x4096_S4096_d0 h_S_) := by
    dsimp only [Gen.V, Gen.hostOps0]
    after_results
    rfl
  rw [e, broadcastInDim_b_1b_apply]
  simp only [Host.reduceAdd, Ideal.hostReduceAdd_def]
  rw [Ideal.hostReduceAdd_single reducesTo_S512x4096_S4096_d0 (by decide)]
  refine congrArg (_ + ·) (Finset.sum_congr rfl fun k _ => ?_)
  exact congrArg (mulf (argW m c) (argW m c)) (funext fun a => Fin.ext (by match a with | ⟨0, _⟩ => rfl | ⟨1, _⟩ => rfl))

/-- The fourth window's array at column `q`: minus one over twice the squared bandwidth, as the host spells it. -/
theorem multiplier_apply (c : Dev nD) (q : Fin 4096) :
    (V m c main_v10 : S1x4096.Idx → EReal) (ix2 (0 : Fin 1) q)
      = Ideal.div (Ideal.ofBits .f32 0xBF800000#32)
          ((Ideal.ofBits .f32 0x40000000#32 * argS m c (ix2 (0 : Fin 1) q))
            * argS m c (ix2 (0 : Fin 1) q)) := by
  have e : (V m c main_v10 : S1x4096.Idx → EReal)
      = Host.divf (F := Ideal) (broadcastInDim S1x4096 ![] bcast_S_S1x4096 (constant (F := Ideal) S_ .f32 0xBF800000#32))
          (mulf (mulf (broadcastInDim S1x4096 ![] bcast_S_S1x4096 (constant (F := Ideal) S_ .f32 0x40000000#32))
            (argS m c)) (argS m c)) := by
    dsimp only [Gen.V, Gen.hostOps0]
    after_results
  rw [e]
  rfl

end Cert.Rbf.KernelHost

end
-- ==== Proof.KernelValue.lean ====
/-
  The kernel's result array, whole. The grid has 8 × 4 points; point `(i, j)` stages rows `1024 i …` of the queries, columns
  `1024 j …` of the centres, of their squared norms and of the multipliers, and writes back block `(i, j)` of the result.
  Entry `(p, q)` of what it writes depends only on row `1024 i + p` of the queries and on column `1024 j + q` of the other
  three, so every written block is the block of ONE array of the arguments — the array with the clamped exponent —, the 32
  blocks tile the result, and the result array ends holding that array.
-/
import proofs.«134517_j82300163326748_2_alg».proof.Proof.Gen.KernelIdeal.Value
import proofs.«134517_j82300163326748_2_alg».proof.Proof.RbfLaw
import proofs.«134517_j82300163326748_2_alg».proof.Proof.KernelEntry
import proofs.«134517_j82300163326748_2_alg».proof.Proof.KernelHost

noncomputable section

open scoped BigOperators

namespace Cert.Rbf.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.Rbf.KernelHost

variable (m : (ℓ : Loc nD τ sig) → Buf (Elt Ideal) ℓ) (ρ : Dev nD → PrngReg)

theorem origin : (![0, 0] : Fin 2 → Nat) = fun _ => 0 := funext fun a => by fin_cases a <;> rfl

/-- The printed index maps over the 32 grid points: the query window moves with the result's row block and stays at column
    block 0; the other three stay at row block 0 and move with the result's column block; the result's block indices stay
    below 8 and 4. -/
theorem block_indices : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = win0_4.index t (1 : Fin 2)
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) ≤ 7 ∧ win0_4.index t (1 : Fin 2) ≤ 3 :=
  (by decide +kernel : ∀ t : Fin grid0.N, _)

/-- Every block of the result is some point's. -/
theorem block_onto : ∀ (q0 : Fin 8) (q1 : Fin 4), ∃ t : Fin cfg0.N, win0_4.index t = ![q0.val, q1.val] :=
  (by decide +kernel : ∀ (q0 : Fin 8) (q1 : Fin 4), ∃ t : Fin grid0.N, win0_4.index t = ![q0.val, q1.val])

/-- One entry of a written block, from what the four loaded blocks hold on the row and the column it reads. -/
theorem block_entry (X : FVec Ideal S8192x512 .f32) (W : FVec Ideal S512x4096 .f32) (S : FVec Ideal S1x4096 .f32)
    (x0 : FVec Ideal S1024x512 .bf16) (x1 : FVec Ideal S512x1024 .bf16) (x2 x3 : FVec Ideal S1x1024 .f32)
    (p q : Fin 1024) (b : Fin 8192) (cc : Fin 4096)
    (h0 : ∀ k : Fin 512, x0 (ix2 p k) = X (ix2 b k))
    (h1 : ∀ k : Fin 512, x1 (ix2 k q) = W (ix2 k cc))
    (h2 : x2 (ix2 (0 : Fin 1) q) = Ideal.ofBits .f32 0x00000000#32 + ∑ k : Fin 512, W (ix2 k cc) * W (ix2 k cc))
    (h3 : x3 (ix2 (0 : Fin 1) q) = Ideal.div (Ideal.ofBits .f32 0xBF800000#32)
      ((Ideal.ofBits .f32 0x40000000#32 * S (ix2 (0 : Fin 1) cc)) * S (ix2 (0 : Fin 1) cc))) :
    k0_pay1 (F := Ideal) x0 x1 x2 x3 (ix2 p q) = Cert.Rbf.clampedEntry X W S b cc := by
  rw [KernelEntry.payload_apply, h2, h3]
  simp only [h0, h1]
  rfl

/-! ## The four staged blocks, read on the row and the column an entry depends on -/

/-- The query block at point `t`, row `p`: row `1024 · (row block) + p` of the queries. -/
theorem queries_block (c : Dev nD) (t : Fin cfg0.N) (p : Fin 1024) (k : Fin 512) (b : Fin 8192)
    (hb : b.val = win0_4.index t (0 : Fin 2) * 1024 + p.val) :
    (iblk m c 0 t : FVec Ideal S1024x512 .bf16) (ix2 p k) = argX m c (ix2 b k) := by
  obtain ⟨e0, e1, -⟩ := block_indices t
  unfold iblk
  rw [View.read_apply]
  show (V m c main_v0 : S8192x512.Idx → EReal) _ = _
  rw [queries_eq]
  refine congrArg (argX m c) (funext fun a => Fin.ext ?_)
  match a with
  | ⟨0, _⟩ => show win0_0.index t (0 : Fin 2) * 1024 + 1 * p.val = b.val; rw [e0, hb]; omega
  | ⟨1, _⟩ => show win0_0.index t (1 : Fin 2) * 512 + 1 * k.val = k.val; rw [e1]; omega

/-- The centre block at point `t`, column `q`: column `1024 · (column block) + q` of the centres. -/
theorem centres_block (c : Dev nD) (t : Fin cfg0.N) (k : Fin 512) (q : Fin 1024) (cc : Fin 4096)
    (hcc : cc.val = win0_4.index t (1 : Fin 2) * 1024 + q.val) :
    (iblk m c 1 t : FVec Ideal S512x1024 .bf16) (ix2 k q) = argW m c (ix2 k cc) := by
  obtain ⟨-, -, e0, e1, -⟩ := block_indices t
  unfold iblk
  rw [View.read_apply]
  show (V m c main_v1 : S512x4096.Idx → EReal) _ = _
  rw [centres_eq]
  refine congrArg (argW m c) (funext fun a => Fin.ext ?_)
  match a with
  | ⟨0, _⟩ => show win0_1.index t (0 : Fin 2) * 512 + 1 * k.val = k.val; rw [e0]; omega
  | ⟨1, _⟩ => show win0_1.index t (1 : Fin 2) * 1024 + 1 * q.val = cc.val; rw [e1, hcc]; omega

/-- The squared-norm block at point `t`, column `q`: zero plus the sum of the squares down that column of the centres. -/
theorem colnorm_block (c : Dev nD) (t : Fin cfg0.N) (q : Fin 1024) (cc : Fin 4096)
    (hcc : cc.val = win0_4.index t (1 : Fin 2) * 1024 + q.val) :
    (iblk m c 2 t : FVec Ideal S1x1024 .f32) (ix2 (0 : Fin 1) q)
      = Ideal.ofBits .f32 0x00000000#32 + ∑ k : Fin 512, argW m c (ix2 k cc) * argW m c (ix2 k cc) := by
  obtain ⟨-, -, -, -, e0, e1, -⟩ := block_indices t
  unfold iblk
  rw [View.read_apply]
  show (V m c main_v5 : S1x4096.Idx → EReal) _ = _
  refine (congrArg (V m c main_v5 : S1x4096.Idx → EReal) (funext fun a => Fin.ext ?_)).trans (colnorm_apply m c cc)
  match a with
  | ⟨0, _⟩ => show win0_2.index t (0 : Fin 2) * 1 + 1 * 0 = 0; rw [e0]
  | ⟨1, _⟩ => show win0_2.index t (1 : Fin 2) * 1024 + 1 * q.val = cc.val; rw [e1, hcc]; omega

/-- The multiplier block at point `t`, column `q`: minus one over twice the squared bandwidth of that column. -/
theorem multiplier_block (c : Dev nD) (t : Fin cfg0.N) (q : Fin 1024) (cc : Fin 4096)
    (hcc : cc.val = win0_4.index t (1 : Fin 2) * 1024 + q.val) :
    (iblk m c 3 t : FVec Ideal S1x1024 .f32) (ix2 (0 : Fin 1) q)
      = Ideal.div (Ideal.ofBits .f32 0xBF800000#32)
          ((Ideal.ofBits .f32 0x40000000#32 * argS m c (ix2 (0 : Fin 1) cc)) * argS m c (ix2 (0 : Fin 1) cc)) := by
  obtain ⟨-, -, -, -, -, -, e0, e1, -⟩ := block_indices t
  unfold iblk
  rw [View.read_apply]
  show (V m c main_v10 : S1x4096.Idx → EReal) _ = _
  refine (congrArg (V m c main_v10 : S1x4096.Idx → EReal) (funext fun a => Fin.ext ?_)).trans (multiplier_apply m c cc)
  match a with
  | ⟨0, _⟩ => show win0_3.index t (0 : Fin 2) * 1 + 1 * 0 = 0; rw [e0]
  | ⟨1, _⟩ => show win0_3.index t (1 : Fin 2) * 1024 + 1 * q.val = cc.val; rw [e1, hcc]; omega

/-! ## Every written block is a block of one array; the blocks tile the result -/

/-- What point `t` writes back is block `t` of the array with the clamped exponent. -/
theorem flushed_eq (c : Dev nD) (t : Fin cfg0.N) :
    (dats m 0 c).flushed 4 t = ((cfg0.win 4).blk t).view.read (Elt Ideal) (Cert.Rbf.clampedArray (argX m c) (argW m c) (argS m c)) := by
  rw [Value.flushed4]
  unfold out0_4
  rw [View.canon_unit_zero origin]
  simp only [View.ld_unit_zero (S := S1024x512) origin, View.ld_unit_zero (S := S512x1024) origin, View.ld_unit_zero (S := S1x1024) origin]
  show (fun j : S1024x1024.Idx => k0_pay1 (F := Ideal) (iblk m c 0 t) (iblk m c 1 t) (iblk m c 2 t) (iblk m c 3 t) j)
    = fun j : S1024x1024.Idx => Cert.Rbf.clampedArray (argX m c) (argW m c) (argS m c) (((cfg0.win 4).blk t).view.emb j)
  funext j
  obtain ⟨p, q, rfl⟩ : ∃ (p q : Fin 1024), j = ix2 p q := ⟨j 0, j 1, eq_ix2 j⟩
  have hp := p.isLt
  have hq := q.isLt
  obtain ⟨-, -, -, -, -, -, -, -, b7, b3⟩ := block_indices t
  refine (block_entry (argX m c) (argW m c) (argS m c) (iblk m c 0 t) (iblk m c 1 t) (iblk m c 2 t) (iblk m c 3 t) p q
    ⟨win0_4.index t (0 : Fin 2) * 1024 + p.val, by omega⟩ ⟨win0_4.index t (1 : Fin 2) * 1024 + q.val, by omega⟩
    (fun k => queries_block m c t p k _ rfl) (fun k => centres_block m c t k q _ rfl)
    (colnorm_block m c t q _ rfl) (multiplier_block m c t q _ rfl)).trans ?_
  show Cert.Rbf.clampedEntry _ _ _ _ _
    = Cert.Rbf.clampedEntry _ _ _ ((((cfg0.win 4).blk t).view.emb (ix2 p q)) 0) ((((cfg0.win 4).blk t).view.emb (ix2 p q)) 1)
  refine congrArg₂ (Cert.Rbf.clampedEntry (argX m c) (argW m c) (argS m c)) (Fin.ext ?_) (Fin.ext ?_)
  · show win0_4.index t (0 : Fin 2) * 1024 + p.val = win0_4.index t (0 : Fin 2) * 1024 + 1 * p.val; omega
  · show win0_4.index t (1 : Fin 2) * 1024 + q.val = win0_4.index t (1 : Fin 2) * 1024 + 1 * q.val; omega

/-- An index of the result is in point `t`'s block iff each coordinate is in the block's range on its axis. -/
theorem mem_block (t : Fin cfg0.N) (i : S8192x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v11).slice (win0_4.rect t)).set ↔ _
  rw [View.set_slice_whole, Rect.mem_set_unit]
  exact Iff.rfl

/-- Every index of the result is in the block of the point whose block indices are its coordinates divided by 1024. -/
theorem covered (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := block_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_block]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-- So the result array ends holding the array with the clamped exponent. -/
theorem final (c : Dev nD) :
    (dats m 0 c).arrAt 4 cfg0.N = Cert.Rbf.clampedArray (argX m c) (argW m c) (argS m c) :=
  (dats m 0 c).arrAt_eq_of_cover 4 _ (fun t _ => flushed_eq m c t) covered

/-- The kernel's run, read: the result at the array with the clamped exponent of the arguments, the arguments unchanged. -/
theorem run : θ_run defs (onTc (τ := τ) (main (F := Ideal))) ⟨m, fun _ => 0, ρ⟩ fun r => ∀ c : Dev nD,
      r.2.mem ((c : Thread nD τ).loc main_v11) = Cert.Rbf.clampedArray (argX m c) (argW m c) (argS m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Rbf.KernelValue

end
-- ==== Proof.lean ====
/-
  A Gaussian radial-basis layer: for queries `x` ([8192, 512]), centres `w` ([512, 4096]) and bandwidths `s` ([1, 4096]) the
  result at `(b, c)` is `exp (−‖x_b − w_c‖² / (2 s_c²))`, with the squared distance expanded as
  `‖x_b‖² + ‖w_c‖² − 2 x_b · w_c`.

  The kernel computes the squared norms of the centres and the multipliers `−1 / (2 s_c²)` on the host, then on an 8 × 4 grid of
  1024 × 1024 blocks the cross term as a matrix product, the queries' squared norms as lane sums, the distance clamped at zero
  from below and `exp` of the product with the multiplier. The reference computes the same distance with host sums and the
  host's product, negates it, divides by `2 s_c²` and applies `exp`. At the exact values rounding to the short format changes
  nothing, so the two programs differ in two places only: the clamp, and a product with a reciprocal in place of a quotient.

  Under the precondition — every input entry a real number and no bandwidth zero — the distance is the sum of the squares
  `(x_bk − w_kc)²`, hence not negative and the clamp is the identity, and `2 s_c²` is a non-zero real, so the product with
  `−1 / (2 s_c²)` is the quotient of the negated distance by `2 s_c²` (Proof/RbfLaw.lean). The non-zero bandwidth is needed: at
  `s_c = 0` with a zero distance one program forms `0 · (−1 / 0)` and the other `0 / 0`.

  The modules: Proof/RbfLaw.lean (the law, and the two arrays as functions of the arguments), Proof/Domain.lean (the
  precondition read as "real entries, non-zero bandwidths"), Proof/RefRead.lean (the reference's result is the array with the
  quotient exponent), Proof/KernelEntry.lean (one entry of a stored block), Proof/KernelHost.lean (the staged arrays),
  Proof/KernelValue.lean (the kernel's result is the array with the clamped exponent). The three frames are the generated
  frame runs; the idealization rewrote nothing.
-/
import proofs.«134517_j82300163326748_2_alg».proof.Defs
import proofs.«134517_j82300163326748_2_alg».proof.Proof.Gen.Kernel
import proofs.«134517_j82300163326748_2_alg».proof.Proof.Gen.Kernel.Skeleton
import proofs.«134517_j82300163326748_2_alg».proof.Proof.Gen.Kernel.Launch
import proofs.«134517_j82300163326748_2_alg».proof.Proof.Gen.Kernel.Points
import proofs.«134517_j82300163326748_2_alg».proof.Proof.Gen.Kernel.Frame
import proofs.«134517_j82300163326748_2_alg».proof.Proof.Gen.KernelIdeal
import proofs.«134517_j82300163326748_2_alg».proof.Proof.Gen.KernelIdeal.Skeleton
import proofs.«134517_j82300163326748_2_alg».proof.Proof.Gen.KernelIdeal.Launch
import proofs.«134517_j82300163326748_2_alg».proof.Proof.Gen.KernelIdeal.Points
import proofs.«134517_j82300163326748_2_alg».proof.Proof.Gen.KernelIdeal.Frame
import proofs.«134517_j82300163326748_2_alg».proof.Proof.Gen.ReferenceIdeal
import proofs.«134517_j82300163326748_2_alg».proof.Proof.Gen.KernelIdeal.Value
import proofs.«134517_j82300163326748_2_alg».proof.Proof.Gen.ReferenceIdeal.Run
import proofs.«134517_j82300163326748_2_alg».proof.Proof.Gen.ReferenceIdeal.Read
import proofs.«134517_j82300163326748_2_alg».proof.Proof.Gen.Pre_finite_inputs
import proofs.«134517_j82300163326748_2_alg».proof.Proof.RbfLaw
import proofs.«134517_j82300163326748_2_alg».proof.Proof.Domain
import proofs.«134517_j82300163326748_2_alg».proof.Proof.RefRead
import proofs.«134517_j82300163326748_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the exact values. -/
theorem preserves : Cert.preserves_Kernel_KernelIdeal := trivial

/-- The kernel's result array is the array with the clamped exponent, the reference's the array with the quotient exponent,
    both of the same arguments; on real entries with non-zero bandwidths the two arrays are equal. -/
theorem algebraic : Cert.algebraic_KernelIdeal_ReferenceIdeal := by
  intro m ρ m' ρ' hpre hagree
  refine ⟨fun c => Cert.Rbf.clampedArray (Cert.Rbf.KernelHost.argX m c) (Cert.Rbf.KernelHost.argW m c) (Cert.Rbf.KernelHost.argS m c),
    Cert.Rbf.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hW, hS⟩ := Cert.Rbf.Domain.decode _ _ _ (hpre c)
  rw [(hagree c).1, (hagree c).2.1, (hagree c).2.2, Cert.ReferenceIdeal.Read.val_main_v19_eq, Cert.Rbf.RefRead.result_eq]
  exact (Cert.Rbf.clampedArray_eq_quotientArray _ _ _ hX hW hS).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
